-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x128 : Shape := ⟨2, ![16384, 128]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S16384x16384 .f32) (main_arg1 : FVec F S16384x128 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Kernel.lean ====
abbrev S16384x16384 : Shape := ⟨2, ![16384, 16384]⟩
abbrev S16384x128 : Shape := ⟨2, ![16384, 128]⟩
abbrev S1024x1024 : Shape := ⟨2, ![1024, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x16384.size a
  hwx0_0 : ∀ i : grid0.Coords, EltTy.bits .f32 = 32 ∨ (Rect.block (s := S16384x16384) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S16384x128.size a
  hwx0_2 : ∀ i : grid0.Coords, EltTy.bits .f32 = 32 ∨ (Rect.block (s := S16384x128) S1024x128.size (cc0_transform_2 i) (hinb0_2 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x128 : Shape := ⟨2, ![16384, 128]⟩

abbrev nBuf : Space → Nat
  | .hbm => 5
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S16384x16384, .f32⟩
  | .hbm, ⟨3, _⟩ => ⟨S16384x16384, .f32⟩
  | .hbm, ⟨4, _⟩ => ⟨S16384x128, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S16384x16384_S16384x128_S16384x128_1_0_0_1_n_n_wf : DotDims.WF S16384x16384 S16384x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.Pieces.lean ====
/-
  What one run of the kernel body leaves behind, as values.

  The body is run at a grid point (i, k): row tile `i` of the output, contraction tile `k`. It keeps a
  [1024, 128] accumulator between points. Whatever the point, it overwrites the accumulator with
  `acc + exp(0 - Mblk) · xblk`, where `Mblk` is the [1024, 1024] block of `M` and `xblk` the [1024, 128] block of `x`
  loaded at the point; at `k = 0` the accumulator is first set to the zero block, and at `k = 15` the updated
  accumulator is also copied to the output block. Each statement below reads the stores of one of the three control
  cases back as that one expression of the loaded blocks.
-/
import proofs.«151692_j65687229826130_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The offsets of every load and store of the body: the origin. -/
theorem hz : (![0, 0] : Fin 2 → Nat) = fun _ => 0 := funext fun a => by fin_cases a <;> rfl

/-- Away from a tile row's first and last contraction step the body leaves in the accumulator what it held, `xs0`, plus
    this step's product of the two loaded blocks. -/
theorem acc_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x1024 .f32) (x1 : Vec F S1024x128 .f32) (xs0 : Vec F S1024x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread,
    View.ld_unit_zero (S := S1024x1024) hz, View.ld_unit_zero (S := S1024x128) hz]

/-- At a tile row's last contraction step the accumulator is updated the same way … -/
theorem acc_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x1024 .f32) (x1 : Vec F S1024x128 .f32) (xs0 : Vec F S1024x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread,
    View.ld_unit_zero (S := S1024x1024) hz, View.ld_unit_zero (S := S1024x128) hz]

/-- … and the output block receives what the accumulator then holds, read back. -/
theorem out_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x1024 .f32) (x1 : Vec F S1024x128 .f32) (xs0 : Vec F S1024x128 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1024x128) _ hz]
  simp only [View.readAt_eq_ld, harg2.read_unread, harg3.read_unread, harg5.read_unread,
    View.ld_unit_zero (S := S1024x1024) hz, View.ld_unit_zero (S := S1024x128) hz]

/-- At a tile row's first contraction step the body first stores the zero block into the accumulator and reads it
    back, so it leaves the zero block plus this step's product. -/
theorem acc_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x1024 .f32) (x1 : Vec F S1024x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x128) hz, View.readCov_unit_zero (S := S1024x128) _ hz]
  simp only [View.readAt_eq_ld, harg2.read_unread, harg3.read_unread,
    View.ld_unit_zero (S := S1024x1024) hz, View.ld_unit_zero (S := S1024x128) hz]

end Cert.KernelIdeal.Pieces
end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.Payload.lean ====
/-
  The body's arithmetic at one entry, over the extended reals.

  With `Mblk` the loaded [1024, 1024] block of `M`, `xblk` the loaded [1024, 128] block of `x` and `acc` what the
  accumulator held, the value the body stores back has, at row `p` and column `q` of the block,
      acc[p, q] + ∑ⱼ exp(-Mblk[p, j]) · xblk[j, q]:
  the two changes of float format are the identity on extended reals, the matrix product into the zero accumulator is
  the plain sum over the contracted coordinate, and `0 - a` is `-a`. The zero block reads `0` everywhere.
-/
import proofs.«151692_j65687229826130_1_alg».proof.Proof.Gen.KernelIdeal.Skeleton
import proofs.«151692_j65687229826130_1_alg».proof.Proof.LibRowOps
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The zero block the first contraction step stores reads `0` at every entry. -/
theorem zero_apply (j : S1024x128.Idx) : k0_pay1 (F := Ideal) j = 0 := by
  unfold k0_pay1
  rw [shapeCast_self]
  exact Ideal.ofBits_zero_f32

/-- The stored value at entry `(p, q)`: what the accumulator held there plus the sum over the contracted coordinate. -/
theorem update_apply (v3 : Vec Ideal S1024x1024 .f32) (v8 v10 : Vec Ideal S1024x128 .f32) (p : Fin 1024) (q : Fin 128) :
    k0_pay2 (F := Ideal) v3 v8 v10 (ix2 p q)
      = v10 (ix2 p q) + ∑ j : Fin 1024, Ideal.exp (-(v3 (ix2 p j))) * v8 (ix2 j q) := by
  unfold k0_pay2
  rw [shapeCast_self]
  rw [addf_apply]
  refine congrArg (v10 (ix2 p q) + ·) ?_
  refine (RowOps.matmul_zero_plain_apply dot_S1024x1024_S1024x128_S1024x128_1_0_0_1_n_n ⟨_, rfl⟩ none _ _ p q).trans ?_
  refine Finset.sum_congr rfl fun j _ => ?_
  rw [truncf_apply, truncf_apply]
  show Ideal.exp (Ideal.ofBits .f32 0x00000000#32 - v3 (ix2 p j)) * _ = _
  rw [Ideal.ofBits_zero_f32, zero_sub]

end Cert.KernelIdeal.Payload

end
-- ==== Proof.Blocks.lean ====
/-
  Where the blocks of a grid point lie in the arrays.

  Grid point `t` (of 256, row-major over 16 × 16) is row tile `i = t / 16`, contraction tile `k = t % 16`. There the
  block of `M` is rows `1024·i + p`, columns `1024·k + j`; the block of `x` is rows `1024·k + j`, all 128 columns; the
  output block is rows `1024·i + p`, all 128 columns. A block's coordinate is always block index × block size + the
  coordinate inside the block.
-/
import proofs.«151692_j65687229826130_1_alg».proof.Proof.Gen.KernelIdeal.Frame.Runs
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The three index maps at point `t`, decided over the grid: `M`'s block is (t / 16, t % 16), `x`'s is (t % 16, 0), the
    output's is (t / 16, 0). -/
theorem index_facts : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

/-- The block of `M` loaded at point `t`, at `(p, j)`, is `M` at row `1024·(t / 16) + p`, column `1024·(t % 16) + j`. -/
theorem mblock_apply (c : Dev nD) (t : Fin cfg0.N) (p j : Fin 1024) (r k : Fin 16384)
    (hr : r.val = 1024 * (t.val / 16) + p.val) (hk : k.val = 1024 * (t.val % 16) + j.val) :
    (iblk m c 0 t : Vec F S1024x1024 .f32) (ix2 p j) = m ((c : Thread nD τ).loc main_arg0) (ix2 r k) := by
  obtain ⟨e0, e1, -, -, -, -⟩ := index_facts t
  unfold iblk
  rw [View.read_apply]
  show V m c main_arg0 _ = _
  unfold V
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * j.val = k.val; rw [e1, hk]; omega

/-- The block of `x` loaded at point `t`, at `(j, q)`, is `x` at row `1024·(t % 16) + j`, column `q`. -/
theorem xblock_apply (c : Dev nD) (t : Fin cfg0.N) (j : Fin 1024) (q : Fin 128) (k : Fin 16384)
    (hk : k.val = 1024 * (t.val % 16) + j.val) :
    (iblk m c 1 t : Vec F S1024x128 .f32) (ix2 j q) = m ((c : Thread nD τ).loc main_arg1) (ix2 k q) := by
  obtain ⟨-, -, e2, e3, -, -⟩ := index_facts t
  unfold iblk
  rw [View.read_apply]
  show V m c main_arg1 _ = _
  unfold V
  congr 1
  funext a
  apply Fin.ext
  match a with
  | ⟨0, _⟩ => show win0_1.index t (0 : Fin 2) * 1024 + 1 * j.val = k.val; rw [e2, hk]; omega
  | ⟨1, _⟩ => show win0_1.index t (1 : Fin 2) * 128 + 1 * q.val = q.val; rw [e3]; omega

/-- Entry `(p, q)` of the output block of point `t` is entry `(1024·(t / 16) + p, q)` of the output array. -/
theorem oblock_emb (t : Fin cfg0.N) (p : Fin 1024) (q : Fin 128) (r : Fin 16384)
    (hr : r.val = 1024 * (t.val / 16) + p.val) :
    ((cfg0.win 2).blk t).view.emb (ix2 p q) = (ix2 r q : S16384x128.Idx) := by
  obtain ⟨-, -, -, -, e4, e5⟩ := index_facts t
  funext a
  apply Fin.ext
  match a with
  | ⟨0, _⟩ => show win0_2.index t (0 : Fin 2) * 1024 + 1 * p.val = r.val; rw [e4, hr]; omega
  | ⟨1, _⟩ => show win0_2.index t (1 : Fin 2) * 128 + 1 * q.val = q.val; rw [e5]; omega

end Cert.KernelIdeal.Blocks

end
-- ==== Proof.LibTileSum.lean ====
/-
  Regrouping a finite sum over `Fin (K * N)` into `K` consecutive tiles of `N` terms each.

  Position `m < K * N` is written `N * s + j` with tile `s < K` and offset `j < N`; a sum over all positions is then
  the sum over the tiles of each tile's own sum. Only commutativity and associativity of the addition are used, so
  the lemmas hold in any additive commutative monoid.
-/
import Mathlib.Data.Fintype.BigOperators
import Mathlib.Logic.Equiv.Fin.Basic

namespace Cert.Lib

open Finset

variable {β : Type*} [AddCommMonoid β]

/-- Offset `j < N` inside tile `s < K` is a position below `K * N`. -/
theorem tile_index_lt {K N : ℕ} (s : Fin K) (j : Fin N) : N * s.val + j.val < K * N :=
  calc N * s.val + j.val < N * s.val + N := Nat.add_lt_add_left j.isLt _
    _ = N * (s.val + 1) := (Nat.mul_succ _ _).symm
    _ ≤ N * K := Nat.mul_le_mul_left _ s.isLt
    _ = K * N := Nat.mul_comm _ _

/-- A sum over `K * N` positions is the sum over the `K` tiles of the sum over each tile's `N` offsets:
    `(s, j) ↦ N * s + j` is a bijection from pairs (tile, offset) onto positions. -/
theorem sum_fin_mul_eq_sum_tiles (K N : ℕ) (f : Fin (K * N) → β) :
    ∑ m : Fin (K * N), f m = ∑ s : Fin K, ∑ j : Fin N, f ⟨N * s.val + j.val, tile_index_lt s j⟩ := by
  rw [← (finProdFinEquiv : Fin K × Fin N ≃ Fin (K * N)).sum_comp f, Fintype.sum_prod_type]
  refine Finset.sum_congr rfl fun s _ => Finset.sum_congr rfl fun j _ => congrArg f (Fin.ext ?_)
  show j.val + N * s.val = N * s.val + j.val
  exact Nat.add_comm _ _

/-- The same with the tiles counted by `Finset.range K`: if `T s` is tile `s`'s own sum for every `s < K`, the sum
    over all positions is `∑ s ∈ range K, T s`. -/
theorem sum_fin_mul_eq_sum_range_of_tiles (K N : ℕ) (f : Fin (K * N) → β) (T : ℕ → β)
    (hT : ∀ s : Fin K, T s.val = ∑ j : Fin N, f ⟨N * s.val + j.val, tile_index_lt s j⟩) :
    ∑ m : Fin (K * N), f m = ∑ s ∈ Finset.range K, T s := by
  rw [sum_fin_mul_eq_sum_tiles K N f, ← Fin.sum_univ_eq_sum_range T K]
  exact Finset.sum_congr rfl fun s _ => (hT s).symm

/-- The same for a summand given as a function `g` of the position as a natural number: the sum over all positions
    is the sum over `s ∈ range K` of `∑ j : Fin N, g (N * s + j)`. -/
theorem sum_fin_mul_eq_sum_range (K N : ℕ) (f : Fin (K * N) → β) (g : ℕ → β) (hfg : ∀ m : Fin (K * N), f m = g m.val) :
    ∑ m : Fin (K * N), f m = ∑ s ∈ Finset.range K, ∑ j : Fin N, g (N * s + j.val) :=
  sum_fin_mul_eq_sum_range_of_tiles K N f (fun s => ∑ j : Fin N, g (N * s + j.val))
    fun s => Finset.sum_congr rfl fun j _ => (hfg ⟨N * s.val + j.val, tile_index_lt s j⟩).symm

/-! ## Four tiles of 1024 in 4096 positions

The three lemmas at `K = 4`, `N = 1024`, with the index type spelt `Fin 4096`. -/

/-- Offset `j < 1024` inside tile `s < 4` is a position below 4096. -/
theorem tile_index_lt_4096 (s : Fin 4) (j : Fin 1024) : 1024 * s.val + j.val < 4096 :=
  tile_index_lt (K := 4) (N := 1024) s j

/-- A sum over 4096 positions is the sum over four tiles of the sum over each tile's 1024 offsets. -/
theorem sum_fin4096_eq_sum_tiles (f : Fin 4096 → β) :
    ∑ m : Fin 4096, f m = ∑ s : Fin 4, ∑ j : Fin 1024, f ⟨1024 * s.val + j.val, tile_index_lt_4096 s j⟩ :=
  sum_fin_mul_eq_sum_tiles 4 1024 f

/-- The same with the four tiles counted by `Finset.range 4`, each tile's sum given as `T s`. -/
theorem sum_fin4096_eq_sum_range_of_tiles (f : Fin 4096 → β) (T : ℕ → β)
    (hT : ∀ s : Fin 4, T s.val = ∑ j : Fin 1024, f ⟨1024 * s.val + j.val, tile_index_lt_4096 s j⟩) :
    ∑ m : Fin 4096, f m = ∑ s ∈ Finset.range 4, T s :=
  sum_fin_mul_eq_sum_range_of_tiles 4 1024 f T hT

/-- The same for a summand given as a function `g` of the position as a natural number. -/
theorem sum_fin4096_eq_sum_range (f : Fin 4096 → β) (g : ℕ → β) (hfg : ∀ m : Fin 4096, f m = g m.val) :
    ∑ m : Fin 4096, f m = ∑ s ∈ Finset.range 4, ∑ j : Fin 1024, g (1024 * s + j.val) :=
  sum_fin_mul_eq_sum_range 4 1024 f g hfg

end Cert.Lib
-- ==== Proof.Spec.lean ====
/-
  The function both programs compute, and its regrouping by contraction tiles.

  For `M` of shape [16384, 16384] and `x` of shape [16384, 128] over the extended reals, the result at row `i` and
  column `c` is  ∑ₖ exp(-M[i, k]) · x[k, c],  the sum over all 16384 contraction positions `k`. Cutting the contraction
  range into 16 consecutive tiles of 1024 positions, position `1024·s + j` being offset `j` of tile `s`, the same entry is
  the sum over the tiles of each tile's own share  ∑ⱼ exp(-M[i, 1024·s + j]) · x[1024·s + j, c].  Only the
  commutativity and associativity of the addition of extended reals are used: nothing is assumed finite.
-/
import Idealize.ShloMosaic.PureOps.Ideal
import Idealize.ShloMosaic.Lib.ValueIdx
import proofs.«151692_j65687229826130_1_alg».proof.Proof.LibTileSum

noncomputable section

open scoped BigOperators

namespace Cert.ExpProduct

open Idealize.ShloMosaic Idealize.ShloMosaic.ValueIdx

/-- The shape of `M`. -/
abbrev SM : Shape := ⟨2, ![16384, 16384]⟩
/-- The shape of `x` and of the result. -/
abbrev SX : Shape := ⟨2, ![16384, 128]⟩

/-- The result `exp(-M) · x`: at `(i, c)` the sum over `k` of `exp(-M[i, k]) · x[k, c]`. -/
def product (M : SM.Idx → EReal) (x : SX.Idx → EReal) : SX.Idx → EReal :=
  fun j => ∑ k : Fin 16384, Ideal.exp (-(M (ix2 (j 0) k))) * x (ix2 k (j 1))

/-- Contraction tile `s`'s share of entry `(i, c)`: the 1024 terms at positions `1024·s + j`; nothing for `s ≥ 16`. -/
def tileShare (M : SM.Idx → EReal) (x : SX.Idx → EReal) (i : Fin 16384) (c : Fin 128) (s : ℕ) : EReal :=
  if h : s < 16 then
    ∑ j : Fin 1024, Ideal.exp (-(M (ix2 i ⟨1024 * s + j.val, by have := j.isLt; omega⟩)))
      * x (ix2 ⟨1024 * s + j.val, by have := j.isLt; omega⟩ c)
  else 0

/-- An entry of the result is the sum of the sixteen tiles' shares. -/
theorem product_eq_tiles (M : SM.Idx → EReal) (x : SX.Idx → EReal) (i : Fin 16384) (c : Fin 128) :
    product M x (ix2 i c) = ∑ s ∈ Finset.range 16, tileShare M x i c s :=
  Cert.Lib.sum_fin_mul_eq_sum_range_of_tiles 16 1024
    (fun k : Fin 16384 => Ideal.exp (-(M (ix2 i k))) * x (ix2 k c)) (tileShare M x i c)
    (fun s => by rw [tileShare, dif_pos s.isLt])

end Cert.ExpProduct

end
-- ==== Proof.Accumulate.lean ====
/-
  The accumulator after every grid point, and the output block at the last contraction step.

  Point `t` is row tile `i = t / 16` at contraction step `k = t % 16`. One step adds to entry `(p, q)` of the
  accumulator the share of contraction tile `k` in entry `(1024·i + p, q)` of `exp(-M) · x`; the step `k = 0` starts
  from the zero block. So after point `t` the accumulator holds, entry by entry, the sum of the shares of the tiles
  `0, …, k` — by induction on the point — and at `k = 15`, where the output block receives the accumulator, that is the
  whole entry of `exp(-M) · x`.
-/
import proofs.«151692_j65687229826130_1_alg».proof.Proof.Gen.KernelIdeal.Frame
import proofs.«151692_j65687229826130_1_alg».proof.Proof.Pieces
import proofs.«151692_j65687229826130_1_alg».proof.Proof.Payload
import proofs.«151692_j65687229826130_1_alg».proof.Proof.Blocks
import proofs.«151692_j65687229826130_1_alg».proof.Proof.Spec

noncomputable section

open scoped BigOperators

namespace Cert.KernelIdeal.Accumulate

open Cert.KernelIdeal Cert.KernelIdeal.Gen Idealize.ShloMosaic Idealize.ShloMosaic.TcCoe Idealize.SL.Sem
open Idealize.ShloMosaic.ValueIdx Cert.ExpProduct

variable (m : (ℓ : Loc nD τ sig) → Buf (Elt Ideal) ℓ)

/-- The argument `M` as launched, on core `c`. -/
abbrev argM (c : Dev nD) : SM.Idx → EReal := m ((c : Thread nD τ).loc main_arg0)
/-- The argument `x` as launched, on core `c`. -/
abbrev argX (c : Dev nD) : SX.Idx → EReal := m ((c : Thread nD τ).loc main_arg1)

/-- ONE STEP at point `t`, whatever the accumulator held (`acc`): entry `(p, q)` gains contraction tile `t % 16`'s share
    of entry `(1024·(t / 16) + p, q)` of the result. -/
theorem step_apply (c : Dev nD) (t : Fin cfg0.N) (acc : Vec Ideal S1024x128 .f32) (p : Fin 1024) (q : Fin 128)
    (r : Fin 16384) (hr : r.val = 1024 * (t.val / 16) + p.val) :
    k0_pay2 (F := Ideal) (iblk m c 0 t) (iblk m c 1 t) acc (ix2 p q)
      = acc (ix2 p q) + tileShare (argM m c) (argX m c) r q (t.val % 16) := by
  refine (Payload.update_apply (iblk m c 0 t) (iblk m c 1 t) acc p q).trans ?_
  refine congrArg (acc (ix2 p q) + ·) ?_
  rw [tileShare, dif_pos (Nat.mod_lt _ (by decide))]
  refine Finset.sum_congr rfl fun j _ => ?_
  exact congrArg₂ (· * ·)
    (congrArg Ideal.exp (congrArg Neg.neg (Blocks.mblock_apply m c t p j r _ hr rfl)))
    (Blocks.xblock_apply m c t j q _ rfl)

/-- At a first contraction step (`t % 16 = 0`) the accumulator ends at tile 0's share alone: the step starts from zero. -/
theorem first_step (c : Dev nD) (t : Fin cfg0.N) (h0 : t.val % 16 = 0) (h1 : ¬t.val % 16 = 15) (p : Fin 1024) (q : Fin 128)
    (r : Fin 16384) (hr : r.val = 1024 * (t.val / 16) + p.val) :
    (outsAt0 m c t.val t.isLt).2 (ix2 p q) = tileShare (argM m c) (argX m c) r q 0 := by
  rw [outsAt0_A m c t h0 h1]
  dsimp only
  refine (congrFun (Pieces.acc_A (F := Ideal) c (grid0.coords t) (ms0_0 t) (hs0_0 t) (ms0_1 t) (hs0_1 t) (ms0_2 t) (hs0_2 t) scM0_0 (Memref.isWhole_whole _) _ _ (iblk m c 0 t) (iblk m c 1 t)) (ix2 p q)).trans ?_
  rw [step_apply m c t _ p q r hr, Payload.zero_apply, zero_add, h0]

/-- At a middle contraction step the accumulator gains the step's share over what the point before left. -/
theorem middle_step (c : Dev nD) (t : Fin cfg0.N) (h0 : ¬t.val % 16 = 0) (h1 : ¬t.val % 16 = 15) (p : Fin 1024) (q : Fin 128)
    (r : Fin 16384) (hr : r.val = 1024 * (t.val / 16) + p.val) :
    (outsAt0 m c t.val t.isLt).2 (ix2 p q)
      = (outsAt0 m c (t.val - 1) (Nat.lt_of_le_of_lt (Nat.sub_le _ _) t.isLt)).2 (ix2 p q)
        + tileShare (argM m c) (argX m c) r q (t.val % 16) := by
  rw [outsAt0_B m c t h0 h1]
  dsimp only
  refine (congrFun (Pieces.acc_B (F := Ideal) c (grid0.coords t) (ms0_0 t) (hs0_0 t) (ms0_1 t) (hs0_1 t) (ms0_2 t) (hs0_2 t) scM0_0 (Memref.isWhole_whole _) _ _ (iblk m c 0 t) (iblk m c 1 t)
    (outsAt0 m c (t.val - 1) (Nat.lt_of_le_of_lt (Nat.sub_le _ _) t.isLt)).2) (ix2 p q)).trans ?_
  exact step_apply m c t _ p q r hr

/-- At a last contraction step (`t % 16 = 15`) the accumulator gains the step's share the same way … -/
theorem last_step (c : Dev nD) (t : Fin cfg0.N) (h0 : ¬t.val % 16 = 0) (h1 : t.val % 16 = 15) (p : Fin 1024) (q : Fin 128)
    (r : Fin 16384) (hr : r.val = 1024 * (t.val / 16) + p.val) :
    (outsAt0 m c t.val t.isLt).2 (ix2 p q)
      = (outsAt0 m c (t.val - 1) (Nat.lt_of_le_of_lt (Nat.sub_le _ _) t.isLt)).2 (ix2 p q)
        + tileShare (argM m c) (argX m c) r q (t.val % 16) := by
  rw [outsAt0_C m c t h0 h1]
  dsimp only
  refine (congrFun (Pieces.acc_C (F := Ideal) c (grid0.coords t) (ms0_0 t) (hs0_0 t) (ms0_1 t) (hs0_1 t) (ms0_2 t) (hs0_2 t) scM0_0 (Memref.isWhole_whole _) _ _ (iblk m c 0 t) (iblk m c 1 t)
    (outsAt0 m c (t.val - 1) (Nat.lt_of_le_of_lt (Nat.sub_le _ _) t.isLt)).2) (ix2 p q)).trans ?_
  exact step_apply m c t _ p q r hr

/-- … and the output block receives the same value. -/
theorem last_step_out (c : Dev nD) (t : Fin cfg0.N) (h0 : ¬t.val % 16 = 0) (h1 : t.val % 16 = 15) (p : Fin 1024) (q : Fin 128)
    (r : Fin 16384) (hr : r.val = 1024 * (t.val / 16) + p.val) :
    (outsAt0 m c t.val t.isLt).1 (ix2 p q)
      = (outsAt0 m c (t.val - 1) (Nat.lt_of_le_of_lt (Nat.sub_le _ _) t.isLt)).2 (ix2 p q)
        + tileShare (argM m c) (argX m c) r q (t.val % 16) := by
  rw [outsAt0_C m c t h0 h1]
  dsimp only
  refine (congrFun (Pieces.out_C (F := Ideal) c (grid0.coords t) (ms0_0 t) (hs0_0 t) (ms0_1 t) (hs0_1 t) (ms0_2 t) (hs0_2 t) scM0_0 (Memref.isWhole_whole _) _ _ (iblk m c 0 t) (iblk m c 1 t)
    (outsAt0 m c (t.val - 1) (Nat.lt_of_le_of_lt (Nat.sub_le _ _) t.isLt)).2) (ix2 p q)).trans ?_
  exact step_apply m c t _ p q r hr

/-- THE RUNNING SUM: after point `n` the accumulator's entry `(p, q)` is the sum of the shares of the contraction tiles
    `0, …, n % 16` in entry `(1024·(n / 16) + p, q)` of the result — by induction on the point. -/
theorem acc_eq (c : Dev nD) : ∀ (n : ℕ) (h : n < cfg0.N) (p : Fin 1024) (q : Fin 128) (r : Fin 16384),
    r.val = 1024 * (n / 16) + p.val →
    (outsAt0 m c n h).2 (ix2 p q) = ∑ s ∈ Finset.range (n % 16 + 1), tileShare (argM m c) (argX m c) r q s := by
  intro n
  induction n with
  | zero =>
    intro h p q r hr
    rw [first_step m c ⟨0, h⟩ rfl (by dsimp only; omega) p q r hr]
    exact (Finset.sum_range_one _).symm
  | succ n ih =>
    intro h p q r hr
    have hN : n + 1 < 256 := lt_of_lt_of_eq h (show cfg0.N = 256 from N_0)
    by_cases h0 : (n + 1) % 16 = 0
    · have h1 : ¬(n + 1) % 16 = 15 := by omega
      rw [first_step m c ⟨n + 1, h⟩ h0 h1 p q r hr, h0]
      exact (Finset.sum_range_one _).symm
    · have hs : (n + 1) % 16 = n % 16 + 1 := by omega
      have hr' : r.val = 1024 * (n / 16) + p.val := by rw [hr]; omega
      have hprev := ih (Nat.lt_of_succ_lt h) p q r hr'
      by_cases h1 : (n + 1) % 16 = 15
      · rw [last_step m c ⟨n + 1, h⟩ h0 h1 p q r hr]
        show (outsAt0 m c n _).2 (ix2 p q) + tileShare _ _ r q ((n + 1) % 16) = _
        rw [hprev, hs]
        exact (Finset.sum_range_succ _ _).symm
      · rw [middle_step m c ⟨n + 1, h⟩ h0 h1 p q r hr]
        show (outsAt0 m c n _).2 (ix2 p q) + tileShare _ _ r q ((n + 1) % 16) = _
        rw [hprev, hs]
        exact (Finset.sum_range_succ _ _).symm

/-- THE OUTPUT BLOCK at a last contraction step: entry `(p, q)` is entry `(1024·(t / 16) + p, q)` of `exp(-M) · x`. -/
theorem out_eq (c : Dev nD) (t : Fin cfg0.N) (h1 : t.val % 16 = 15) (p : Fin 1024) (q : Fin 128)
    (r : Fin 16384) (hr : r.val = 1024 * (t.val / 16) + p.val) :
    (outsAt0 m c t.val t.isLt).1 (ix2 p q) = product (argM m c) (argX m c) (ix2 r q) := by
  have hN : t.val < 256 := lt_of_lt_of_eq t.isLt (show cfg0.N = 256 from N_0)
  have h0 : ¬t.val % 16 = 0 := by omega
  rw [last_step_out m c t h0 h1 p q r hr, acc_eq m c (t.val - 1) _ p q r (by rw [hr]; omega), product_eq_tiles,
    show (t.val - 1) % 16 + 1 = 15 from by omega, h1]
  exact (Finset.sum_range_succ _ 15).symm

end Cert.KernelIdeal.Accumulate

end
-- ==== Proof.Final.lean ====
/-
  The kernel's result array after the run is `exp(-M) · x`.

  The pipeline writes the output block back only at a last contraction step (`t % 16 = 15`), and what it writes there is
  block `t / 16` of `exp(-M) · x`: 1024 rows, all 128 columns. Row `r` of the array lies in the block written at point
  `16·(r / 1024) + 15`, so the sixteen written blocks cover the array.
-/
import proofs.«151692_j65687229826130_1_alg».proof.Proof.Gen.KernelIdeal.Value
import proofs.«151692_j65687229826130_1_alg».proof.Proof.Accumulate

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.ExpProduct Cert.KernelIdeal.Accumulate

variable (m : (ℓ : Loc nD τ sig) → Buf (Elt Ideal) ℓ) (ρ : Dev nD → PrngReg)

/-- `exp(-M) · x` of the arguments as launched, as contents of the result array. -/
abbrev result (c : Dev nD) : Buf (Elt Ideal) ((c : Thread nD τ).loc main_v0) := product (argM m c) (argX m c)

/-- Row `p` of the block of row tile `t / 16` is row `1024·(t / 16) + p` of the array. -/
def rowOf (t : Fin cfg0.N) (p : Fin 1024) : Fin 16384 :=
  ⟨1024 * (t.val / 16) + p.val, by
    have hN : t.val < 256 := lt_of_lt_of_eq t.isLt (show cfg0.N = 256 from N_0)
    have := p.isLt
    omega⟩

/-- At a last contraction step the output block is the block of the result at the rows of its row tile. -/
theorem block_eq (c : Dev nD) (t : Fin cfg0.N) (h1 : t.val % 16 = 15) :
    ((outsAt0 m c t.val t.isLt).1 : Vec Ideal S1024x128 .f32) = fun j => result m c (ix2 (rowOf t (j 0)) (j 1)) := by
  funext j
  obtain ⟨p, q, rfl⟩ : ∃ (p : Fin 1024) (q : Fin 128), j = ix2 p q := ⟨j 0, j 1, eq_ix2 j⟩
  exact out_eq m c t h1 p q (rowOf t p) rfl

/-- What a write-back writes is its block of the result. -/
theorem flushed_eq (c : Dev nD) (t : Fin cfg0.N) (hf : (cfg0.win 2).flush t = true) :
    (dats m 0 c).flushed 2 t = ((cfg0.win 2).blk t).view.read (Elt Ideal) (result m c) := by
  have h1 : t.val % 16 = 15 := (flush0_2 t).mp hf
  obtain ⟨-, -, -, -, e4, e5⟩ := Blocks.index_facts t
  rw [Value.flushed2, block_eq m c t h1]
  generalize result m c = R
  funext j
  rw [View.read_apply]
  show R _ = R _
  congr 1
  funext a
  apply Fin.ext
  match a with
  | ⟨0, _⟩ => show 1024 * (t.val / 16) + (j 0).val = win0_2.index t (0 : Fin 2) * 1024 + 1 * (j 0).val; rw [e4]; omega
  | ⟨1, _⟩ => show (j 1).val = win0_2.index t (1 : Fin 2) * 128 + 1 * (j 1).val; rw [e5]; omega

/-- An index of the array is in point `t`'s block iff each coordinate is in the block's range on its axis. -/
theorem mem_blk (t : Fin cfg0.N) (i : S16384x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v0).slice (win0_2.rect t)).set ↔ _
  rw [View.set_slice_whole, Rect.mem_set_unit]
  exact Iff.rfl

/-- Every index of the array is in the block some write-back writes: row `r` in that of point `16·(r / 1024) + 15`. -/
theorem cover (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have hN : cfg0.N = 256 := N_0
  let t : Fin cfg0.N := ⟨16 * ((i 0).val / 1024) + 15, by omega⟩
  have ht : t.val = 16 * ((i 0).val / 1024) + 15 := rfl
  obtain ⟨-, -, -, -, e4, e5⟩ := Blocks.index_facts t
  refine ⟨t, (flush0_2 t).mpr (by omega), ?_⟩
  rw [mem_blk]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 128 ≤ (i 1).val ∧ (i 1).val < win0_2.index t (1 : Fin 2) * 128 + 128
    rw [e5]; omega

/-- The result array after the last point. -/
theorem final (c : Dev nD) : (dats m 0 c).arrAt 2 cfg0.N = result m c :=
  (dats m 0 c).arrAt_eq_of_cover 2 (result m c) (flushed_eq m c) cover

/-- THE RUN, READ: every weakly fair execution of the kernel's program terminates with the result array at
    `exp(-M) · x` of the arguments as launched, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.RefValue.lean ====
/-
  The reference's result is `exp(-M) · x`.

  The reference negates `M`, exponentiates entry by entry and multiplies by `x` in one matrix product; read at row `i`,
  column `c` over the extended reals that is the sum over all contraction positions `k` of `exp(-M[i, k]) · x[k, c]`.
-/
import proofs.«151692_j65687229826130_1_alg».proof.Proof.Gen.ReferenceIdeal.Read
import proofs.«151692_j65687229826130_1_alg».proof.Proof.Spec

noncomputable section

open scoped BigOperators

namespace Cert.ReferenceIdeal.RefValue

open Cert.ReferenceIdeal Cert.ReferenceIdeal.Gen Cert.ReferenceIdeal.Read Idealize.ShloMosaic
open Idealize.ShloMosaic.ValueIdx Cert.ExpProduct

/-- The left operand's index at result index `i`, contraction position `k`: row `i 0`, column `k`. -/
theorem lidx_eq (i : S16384x128.Idx) (k : Fin 16384) : lidx_main_v2 i k = ix2 (i 0) k :=
  funext fun a => Fin.ext (by match a with | ⟨0, _⟩ => rfl | ⟨1, _⟩ => rfl)

/-- The right operand's index there: row `k`, column `i 1`. -/
theorem ridx_eq (i : S16384x128.Idx) (k : Fin 16384) : ridx_main_v2 i k = ix2 k (i 1) :=
  funext fun a => Fin.ext (by match a with | ⟨0, _⟩ => rfl | ⟨1, _⟩ => rfl)

/-- The reference's composed term is `exp(-M) · x`, index by index. -/
theorem result_eq (M : (⟨S16384x16384, .f32⟩ : BufTy).Contents (Elt Ideal)) (x : (⟨S16384x128, .f32⟩ : BufTy).Contents (Elt Ideal)) :
    val_main_v2 (F := Ideal) M x = product M x := by
  funext i
  rw [val_main_v2_apply]
  unfold product
  refine Finset.sum_congr rfl fun k _ => ?_
  rw [val_main_v1_apply, val_main_v0_apply, lidx_eq, ridx_eq]
  rfl

end Cert.ReferenceIdeal.RefValue

end
-- ==== Proof.lean ====
/-
  The kernel computes `exp(-M) · x` for `M` of shape [16384, 16384] and `x` of shape [16384, 128], tile by tile: the grid
  is 16 row tiles by 16 contraction tiles, each step adds `exp(0 - Mblk) · xblk` (a [1024, 1024] block times a
  [1024, 128] block, through bf16 operands) into a [1024, 128] accumulator that is zeroed at the first contraction step
  and copied to the output block at the last. The reference is `exp(-M) @ x` in one matrix product.

  Over the extended reals the changes of float format are the identity and `0 - a = -a`, so the kernel's entry
  `(r, c)` is  ∑ₛ ∑ⱼ exp(-M[r, 1024·s + j]) · x[1024·s + j, c]  (the sum over the sixteen contraction tiles of each
  tile's share, starting from zero) and the reference's is  ∑ₖ exp(-M[r, k]) · x[k, c]:  the same sum regrouped. Only
  commutativity and associativity of the addition are needed, so the precondition (finite inputs) is never opened.

  The five claims: the two kernels' frames are the generated ones; the reference's frame is its generated run with the
  result dropped; the idealization rewrote nothing; and both idealized programs end at `exp(-M) · x` of the arguments.
-/
import proofs.«151692_j65687229826130_1_alg».proof.Defs
import proofs.«151692_j65687229826130_1_alg».proof.Proof.Gen.Kernel
import proofs.«151692_j65687229826130_1_alg».proof.Proof.Gen.Kernel.Skeleton
import proofs.«151692_j65687229826130_1_alg».proof.Proof.Gen.Kernel.Launch
import proofs.«151692_j65687229826130_1_alg».proof.Proof.Gen.Kernel.Points
import proofs.«151692_j65687229826130_1_alg».proof.Proof.Gen.Kernel.Frame
import proofs.«151692_j65687229826130_1_alg».proof.Proof.Gen.KernelIdeal
import proofs.«151692_j65687229826130_1_alg».proof.Proof.Gen.KernelIdeal.Skeleton
import proofs.«151692_j65687229826130_1_alg».proof.Proof.Gen.KernelIdeal.Launch
import proofs.«151692_j65687229826130_1_alg».proof.Proof.Gen.KernelIdeal.Points
import proofs.«151692_j65687229826130_1_alg».proof.Proof.Gen.KernelIdeal.Frame
import proofs.«151692_j65687229826130_1_alg».proof.Proof.Gen.ReferenceIdeal
import proofs.«151692_j65687229826130_1_alg».proof.Proof.Gen.Pre_finite_inputs
import proofs.«151692_j65687229826130_1_alg».proof.Proof.Gen.KernelIdeal.Value
import proofs.«151692_j65687229826130_1_alg».proof.Proof.Gen.ReferenceIdeal.Run
import proofs.«151692_j65687229826130_1_alg».proof.Proof.Gen.ReferenceIdeal.Read
import proofs.«151692_j65687229826130_1_alg».proof.Proof.Final
import proofs.«151692_j65687229826130_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs, from memories agreeing on `M` and `x`, end with the result array at `exp(-M) · x`. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
